-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S4x256x256 : Shape := ⟨3, ![4, 256, 256]⟩
abbrev S4x256 : Shape := ⟨2, ![4, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_arg4 : FVec F S4x256 .f32) (main_arg5 : FVec F S4x256x256 .f32) (main_arg6 : FVec F S4x256 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg4
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256x256 .f32 := Host.absf main_arg5
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  main_v33

def fn {F : FTy → Type} [FloatOps F] (main_arg0 : FVec F S131072x256 .f32) (main_arg1 : FVec F S131072x256 .f32) (main_arg2 : FVec F S131072x256 .f32) (main_arg3 : FVec F S4x256x256 .f32) (main_arg4 : FVec F S4x256 .f32) (main_arg5 : FVec F S4x256x256 .f32) (main_arg6 : FVec F S4x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_v13 main_v16
-- ==== Kernel.lean ====
abbrev S131072x256 : Shape := ⟨2, ![131072, 256]⟩
abbrev S4x256x256 : Shape := ⟨3, ![4, 256, 256]⟩
abbrev S4x256 : Shape := ⟨2, ![4, 256]⟩
abbrev S2048x256 : Shape := ⟨2, ![2048, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 14
  | .vmem => 13
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S4x256x256, .f32⟩
  | .hbm, ⟨4, _⟩ => ⟨S4x256, .f32⟩
  | .hbm, ⟨5, _⟩ => ⟨S4x256x256, .f32⟩
  | .hbm, ⟨6, _⟩ => ⟨S4x256, .f32⟩
  | .hbm, ⟨7, _⟩ => ⟨S4x256x256, .f32⟩
  | .hbm, ⟨8, _⟩ => ⟨S4x256x256, .bf16⟩
  | .hbm, ⟨9, _⟩ => ⟨S4x256x256, .f32⟩
  | .hbm, ⟨10, _⟩ => ⟨S4x256x256, .bf16⟩
  | .hbm, ⟨11, _⟩ => ⟨S4x256, .f32⟩
  | .hbm, ⟨12, _⟩ => ⟨S131072x256, .f32⟩
  | .hbm, ⟨13, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S4x256x256, .bf16⟩
  | .local _ .vmem, ⟨7, _⟩ => ⟨S4x256x256, .bf16⟩
  | .local _ .vmem, ⟨8, _⟩ => ⟨S4x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x256x256_S4x256x256_0_2_1 : S4x256x256.Transposes [0, 2, 1] S4x256x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S2048x256 : S1x256.Broadcasts S2048x256
  inb_S4x256x256_S1x256x256_1_0_0 : ∀ a, (![1, 0, 0] : Fin 3 → Nat) a + S1x256x256.size a ≤ S4x256x256.size a
  inb_S4x256_S1x256_1_0 : ∀ a, (![1, 0] : Fin 2 → Nat) a + S1x256.size a ≤ S4x256.size a
  inb_S4x256x256_S1x256x256_2_0_0 : ∀ a, (![2, 0, 0] : Fin 3 → Nat) a + S1x256x256.size a ≤ S4x256x256.size a
  inb_S4x256_S1x256_2_0 : ∀ a, (![2, 0] : Fin 2 → Nat) a + S1x256.size a ≤ S4x256.size a
  inb_S4x256x256_S1x256x256_3_0_0 : ∀ a, (![3, 0, 0] : Fin 3 → Nat) a + S1x256x256.size a ≤ S4x256x256.size a
  inb_S4x256_S1x256_3_0 : ∀ a, (![3, 0] : Fin 2 → Nat) a + S1x256.size a ≤ S4x256.size a
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S131072x256.size a
  hwx0_2 : ∀ i : grid0.Coords, EltTy.bits .f32 = 32 ∨ (Rect.block (s := S131072x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S4x256x256.size a
  hwx0_3 : ∀ i : grid0.Coords, EltTy.bits .bf16 = 32 ∨ (Rect.block (s := S4x256x256) S4x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S4x256x256.size a
  hwx0_4 : ∀ i : grid0.Coords, EltTy.bits .bf16 = 32 ∨ (Rect.block (s := S4x256x256) S4x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S131072x256.size a
  hwx0_6 : ∀ i : grid0.Coords, EltTy.bits .f32 = 32 ∨ (Rect.block (s := S131072x256) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S131072x256.size a
  hwx0_7 : ∀ i : grid0.Coords, EltTy.bits .f32 = 32 ∨ (Rect.block (s := S131072x256) S2048x256.size (cc0_transform_7 i) (hinb0_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x256 : Shape := ⟨2, ![131072, 256]⟩
abbrev S4x256x256 : Shape := ⟨3, ![4, 256, 256]⟩
abbrev S4x256 : Shape := ⟨2, ![4, 256]⟩
abbrev S4x256x131072 : Shape := ⟨3, ![4, 256, 131072]⟩
abbrev S4x131072x256 : Shape := ⟨3, ![4, 131072, 256]⟩
abbrev S4x1x256 : Shape := ⟨3, ![4, 1, 256]⟩
abbrev S_ : Shape := ⟨0, ![]⟩
abbrev S1x131072x256 : Shape := ⟨3, ![1, 131072, 256]⟩

abbrev nBuf : Space → Nat
  | .hbm => 39
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S4x256x256, .f32⟩
  | .hbm, ⟨4, _⟩ => ⟨S4x256, .f32⟩
  | .hbm, ⟨5, _⟩ => ⟨S4x256x256, .f32⟩
  | .hbm, ⟨6, _⟩ => ⟨S4x256, .f32⟩
  | .hbm, ⟨7, _⟩ => ⟨S4x256x131072, .f32⟩
  | .hbm, ⟨8, _⟩ => ⟨S4x131072x256, .f32⟩
  | .hbm, ⟨9, _⟩ => ⟨S4x1x256, .f32⟩
  | .hbm, ⟨10, _⟩ => ⟨S4x131072x256, .f32⟩
  | .hbm, ⟨11, _⟩ => ⟨S4x131072x256, .f32⟩
  | .hbm, ⟨12, _⟩ => ⟨S4x256x131072, .f32⟩
  | .hbm, ⟨13, _⟩ => ⟨S4x131072x256, .f32⟩
  | .hbm, ⟨14, _⟩ => ⟨S4x1x256, .f32⟩
  | .hbm, ⟨15, _⟩ => ⟨S4x131072x256, .f32⟩
  | .hbm, ⟨16, _⟩ => ⟨S4x131072x256, .f32⟩
  | .hbm, ⟨17, _⟩ => ⟨S4x131072x256, .f32⟩
  | .hbm, ⟨18, _⟩ => ⟨S4x131072x256, .f32⟩
  | .hbm, ⟨19, _⟩ => ⟨S4x131072x256, .f32⟩
  | .hbm, ⟨20, _⟩ => ⟨S_, .f32⟩
  | .hbm, ⟨21, _⟩ => ⟨S4x131072x256, .f32⟩
  | .hbm, ⟨22, _⟩ => ⟨S4x131072x256, .f32⟩
  | .hbm, ⟨23, _⟩ => ⟨S_, .f32⟩
  | .hbm, ⟨24, _⟩ => ⟨S4x131072x256, .f32⟩
  | .hbm, ⟨25, _⟩ => ⟨S4x131072x256, .f32⟩
  | .hbm, ⟨26, _⟩ => ⟨S1x131072x256, .f32⟩
  | .hbm, ⟨27, _⟩ => ⟨S131072x256, .f32⟩
  | .hbm, ⟨28, _⟩ => ⟨S1x131072x256, .f32⟩
  | .hbm, ⟨29, _⟩ => ⟨S131072x256, .f32⟩
  | .hbm, ⟨30, _⟩ => ⟨S1x131072x256, .f32⟩
  | .hbm, ⟨31, _⟩ => ⟨S131072x256, .f32⟩
  | .hbm, ⟨32, _⟩ => ⟨S1x131072x256, .f32⟩
  | .hbm, ⟨33, _⟩ => ⟨S131072x256, .f32⟩
  | .hbm, ⟨34, _⟩ => ⟨S131072x256, .f32⟩
  | .hbm, ⟨35, _⟩ => ⟨S131072x256, .f32⟩
  | .hbm, ⟨36, _⟩ => ⟨S131072x256, .f32⟩
  | .hbm, ⟨37, _⟩ => ⟨S131072x256, .f32⟩
  | .hbm, ⟨38, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  transposes_S4x256x131072_S4x131072x256_0_2_1 : S4x256x131072.Transposes [0, 2, 1] S4x131072x256
  bcast_S4x256_S4x1x256_0_2 : S4x256.BroadcastsInDim S4x1x256 (![0, 2] : Fin 2 → Fin S4x1x256.rank)
  bcast_S4x1x256_S4x131072x256_0_1_2 : S4x1x256.BroadcastsInDim S4x131072x256 (![0, 1, 2] : Fin 3 → Fin S4x131072x256.rank)
  bcast_S_S4x131072x256 : S_.BroadcastsInDim S4x131072x256 (![] : Fin 0 → Fin S4x131072x256.rank)
  slices_S4x131072x256_S1x131072x256_0_0_0 : S4x131072x256.Slices ![0, 0, 0] S1x131072x256
  shapeCasts_S1x131072x256_S131072x256 : S1x131072x256.ShapeCasts S131072x256
  slices_S4x131072x256_S1x131072x256_1_0_0 : S4x131072x256.Slices ![1, 0, 0] S1x131072x256
  slices_S4x131072x256_S1x131072x256_2_0_0 : S4x131072x256.Slices ![2, 0, 0] S1x131072x256
  slices_S4x131072x256_S1x131072x256_3_0_0 : S4x131072x256.Slices ![3, 0, 0] S1x131072x256
  dot_S4x256x256_S131072x256_S4x256x131072_2_1_01_0_n_n_wf : DotDims.WF S4x256x256 S131072x256 S4x256x131072 [2] [1] [0, 1] [0] [] []

variable [Facts₀]

def dot_S4x256x256_S131072x256_S4x256x131072_2_1_01_0_n_n : DotDims S4x256x256 S131072x256 S4x256x131072 where
  lhsContracting := [2]
  rhsContracting := [1]
  lhsNonContracting := [0, 1]
  rhsNonContracting := [0]
  lhsBatch := []
  rhsBatch := []
  wf := dot_S4x256x256_S131072x256_S4x256x131072_2_1_01_0_n_n_wf

class Facts : Prop extends Facts₀ where

variable [Facts]
-- ==== Proof.Spec.lean ====
/-
  The LSTM cell both programs compute, written once over the extended reals, index by index, as a function of the
  seven argument arrays: the input rows `x`, the previous hidden rows `ht`, the previous cell rows `ct`
  (each 131072 × 256), the four gates' input weights `wx` and recurrent weights `wh` (each 4 × 256 × 256, gate,
  hidden unit, contracted coordinate) and the four gates' two bias rows `bx`, `bh` (each 4 × 256).

  For gate `k`, batch row `b` and hidden unit `h` the pre-activation is
      (Σ_d wx[k,h,d] · x[b,d] + bx[k,h]) + (Σ_d wh[k,h,d] · ht[b,d] + bh[k,h]),
  the gate is the logistic function of it (all four gates: input 0, forget 1, output 2, candidate 3), the new
  cell is  gate₁ · ct[b,h] + gate₀ · gate₃  and the new hidden value is  gate₂ · tanh(cell).

  The one algebraic fact the certificate needs is `preact_fused`: the two dot products added first and the two
  biases added first, each product with its factors in the other order, give the same pre-activation. It uses only
  that + and · on the extended reals are commutative and + associative, so it holds at the infinities too and no
  finiteness of the inputs is used.
-/
import Idealize.ShloMosaic.PureOps.Ideal
import Idealize.ShloMosaic.Lib.ValueIdx

noncomputable section

namespace Cert.LstmCell

open Idealize.ShloMosaic Idealize.ShloMosaic.ValueIdx

/-- The shape of `x`, `ht`, `ct` and of both results: batch row, feature. -/
abbrev SRows : Shape := ⟨2, ![131072, 256]⟩
/-- The shape of `wx` and `wh`: gate, hidden unit, contracted coordinate. -/
abbrev SWeights : Shape := ⟨3, ![4, 256, 256]⟩
/-- The shape of `bx` and `bh`: gate, hidden unit. -/
abbrev SBiases : Shape := ⟨2, ![4, 256]⟩

variable (x ht ct : SRows.Idx → EReal) (wx wh : SWeights.Idx → EReal) (bx bh : SBiases.Idx → EReal)

/-- Gate `k`'s pre-activation at batch row `b`, hidden unit `h`: each linear layer with its own bias, then added. -/
def preact (k : Fin 4) (b : Fin 131072) (h : Fin 256) : EReal :=
  ((∑ d : Fin 256, wx (ix3 k h d) * x (ix2 b d)) + bx (ix2 k h))
    + ((∑ d : Fin 256, wh (ix3 k h d) * ht (ix2 b d)) + bh (ix2 k h))

/-- Gate `k` there: the logistic function of the pre-activation. -/
def gate (k : Fin 4) (b : Fin 131072) (h : Fin 256) : EReal :=
  Ideal.logistic (preact x ht wx wh bx bh k b h)

/-- The new cell value: forget gate times the old cell plus input gate times candidate gate. -/
def cellAt (b : Fin 131072) (h : Fin 256) : EReal :=
  gate x ht wx wh bx bh 1 b h * ct (ix2 b h) + gate x ht wx wh bx bh 0 b h * gate x ht wx wh bx bh 3 b h

/-- The new hidden value: output gate times tanh of the new cell. -/
def hiddenAt (b : Fin 131072) (h : Fin 256) : EReal :=
  gate x ht wx wh bx bh 2 b h * Ideal.tanh (cellAt x ht ct wx wh bx bh b h)

/-- The new cell array. -/
def cell : SRows.Idx → EReal := fun i => cellAt x ht ct wx wh bx bh (i 0) (i 1)

/-- The new hidden array. -/
def hidden : SRows.Idx → EReal := fun i => hiddenAt x ht ct wx wh bx bh (i 0) (i 1)

/-- The pre-activation with the two dot products added first and the two biases added first, the factors of each
    product in the other order: the same extended real, by commutativity of · and of +, and associativity of +. -/
theorem preact_fused (k : Fin 4) (b : Fin 131072) (h : Fin 256) :
    ((∑ d : Fin 256, x (ix2 b d) * wx (ix3 k h d)) + (∑ d : Fin 256, ht (ix2 b d) * wh (ix3 k h d)))
        + (bx (ix2 k h) + bh (ix2 k h))
      = preact x ht wx wh bx bh k b h := by
  unfold preact
  rw [add_add_add_comm]
  refine congrArg₂ (· + ·) (congrArg (· + bx (ix2 k h)) ?_) (congrArg (· + bh (ix2 k h)) ?_)
  · exact Finset.sum_congr rfl fun d _ => mul_comm _ _
  · exact Finset.sum_congr rfl fun d _ => mul_comm _ _

/-! ## The same cell as the kernel arranges it

The kernel is handed the weights with their last two axes exchanged (`wxT[k,d,h] = wx[k,h,d]`, likewise `whT`) and one
bias array `bs = bx + bh`, and computes each gate as the logistic function of  (Σ_d x[b,d] · wxT[k,d,h] +
Σ_d ht[b,d] · whT[k,d,h]) + bs[k,h] . Under those two relations this is the specification's gate (`preact_fused`), and
so are the cell and hidden arrays built from it. -/

variable (wxT whT : SWeights.Idx → EReal) (bs : SBiases.Idx → EReal)

/-- Gate `k` at batch row `b`, hidden unit `h`, in the kernel's arrangement. -/
def fusedGate (k : Fin 4) (b : Fin 131072) (h : Fin 256) : EReal :=
  Ideal.logistic (((∑ d : Fin 256, x (ix2 b d) * wxT (ix3 k d h)) + (∑ d : Fin 256, ht (ix2 b d) * whT (ix3 k d h)))
    + bs (ix2 k h))

/-- The new cell value in the kernel's arrangement. -/
def fusedCellAt (b : Fin 131072) (h : Fin 256) : EReal :=
  fusedGate x ht wxT whT bs 1 b h * ct (ix2 b h) + fusedGate x ht wxT whT bs 0 b h * fusedGate x ht wxT whT bs 3 b h

/-- The new hidden value in the kernel's arrangement. -/
def fusedHiddenAt (b : Fin 131072) (h : Fin 256) : EReal :=
  fusedGate x ht wxT whT bs 2 b h * Ideal.tanh (fusedCellAt x ht ct wxT whT bs b h)

/-- The new cell array in the kernel's arrangement. -/
def fusedCell : SRows.Idx → EReal := fun i => fusedCellAt x ht ct wxT whT bs (i 0) (i 1)

/-- The new hidden array in the kernel's arrangement. -/
def fusedHidden : SRows.Idx → EReal := fun i => fusedHiddenAt x ht ct wxT whT bs (i 0) (i 1)

section
variable {wx wh bx bh wxT whT bs}
variable (hwx : ∀ (k : Fin 4) (d h : Fin 256), wxT (ix3 k d h) = wx (ix3 k h d))
  (hwh : ∀ (k : Fin 4) (d h : Fin 256), whT (ix3 k d h) = wh (ix3 k h d))
  (hbs : ∀ (k : Fin 4) (h : Fin 256), bs (ix2 k h) = bx (ix2 k h) + bh (ix2 k h))
include hwx hwh hbs

theorem fusedGate_eq (k : Fin 4) (b : Fin 131072) (h : Fin 256) :
    fusedGate x ht wxT whT bs k b h = gate x ht wx wh bx bh k b h := by
  unfold fusedGate gate
  refine congrArg Ideal.logistic ?_
  rw [← preact_fused, hbs]
  refine congrArg (· + (bx (ix2 k h) + bh (ix2 k h))) (congrArg₂ (· + ·) ?_ ?_)
  · exact Finset.sum_congr rfl fun d _ => by rw [hwx]
  · exact Finset.sum_congr rfl fun d _ => by rw [hwh]

theorem fusedCellAt_eq (b : Fin 131072) (h : Fin 256) :
    fusedCellAt x ht ct wxT whT bs b h = cellAt x ht ct wx wh bx bh b h := by
  unfold fusedCellAt cellAt
  rw [fusedGate_eq x ht hwx hwh hbs, fusedGate_eq x ht hwx hwh hbs, fusedGate_eq x ht hwx hwh hbs]

theorem fusedHiddenAt_eq (b : Fin 131072) (h : Fin 256) :
    fusedHiddenAt x ht ct wxT whT bs b h = hiddenAt x ht ct wx wh bx bh b h := by
  unfold fusedHiddenAt hiddenAt
  rw [fusedGate_eq x ht hwx hwh hbs, fusedCellAt_eq x ht ct hwx hwh hbs]

theorem fusedCell_eq : fusedCell x ht ct wxT whT bs = cell x ht ct wx wh bx bh :=
  funext fun i => fusedCellAt_eq x ht ct hwx hwh hbs (i 0) (i 1)

theorem fusedHidden_eq : fusedHidden x ht ct wxT whT bs = hidden x ht ct wx wh bx bh :=
  funext fun i => fusedHiddenAt_eq x ht ct hwx hwh hbs (i 0) (i 1)

end

end Cert.LstmCell

end
-- ==== Proof.RefSide.lean ====
/-
  The reference program's two results, read index by index, are the specification's `hidden` and `cell`.

  The reference forms, for all four gates at once, a 4 × 131072 × 256 array of pre-activations: each einsum is a
  `dot_general` contracting the weights' last axis with the rows' last axis, giving gate × hidden unit × batch row,
  transposed to gate × batch row × hidden unit; each bias row is broadcast along the batch axis and added to its own
  einsum; the two sums are added. The logistic function is spelt  1 / (1 + exp(−z)) , which on the extended reals is the
  logistic function by definition, the word 0x3F800000 being the extended real 1. Gate `k` is the slice at `k` along the
  first axis with that unit axis dropped; the results are  gate₁ · ct + gate₀ · gate₃  and  gate₂ · tanh  of it.

  So at gate `k`, batch row `b`, hidden unit `h` the big array holds  `LstmCell.gate … k b h`  (`gates_apply`):
  every layout operation is read at its index and the composed index maps are the identity on `(k, b, h)`,
  `(k, h, d)` into the weights and `(b, d)` into the rows.
-/
import proofs.«113994_j31361851195863_2_alg».proof.Proof.Gen.ReferenceIdeal.Read
import proofs.«113994_j31361851195863_2_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx Cert.LstmCell

variable (x ht ct : SRows.Idx → EReal) (wx wh : SWeights.Idx → EReal) (bx bh : SBiases.Idx → EReal)

/-! ## The composed index maps -/

theorem wx_idx (k : Fin 4) (b : Fin 131072) (h d : Fin 256) :
    lidx_main_v0 (idx_main_v1 (ix3 k b h)) d = ix3 k h d :=
  funext fun a => Fin.ext (by match a with | ⟨0, _⟩ => rfl | ⟨1, _⟩ => rfl | ⟨2, _⟩ => rfl)

theorem x_idx (k : Fin 4) (b : Fin 131072) (h d : Fin 256) :
    ridx_main_v0 (idx_main_v1 (ix3 k b h)) d = ix2 b d :=
  funext fun a => Fin.ext (by match a with | ⟨0, _⟩ => rfl | ⟨1, _⟩ => rfl)

theorem wh_idx (k : Fin 4) (b : Fin 131072) (h d : Fin 256) :
    lidx_main_v5 (idx_main_v6 (ix3 k b h)) d = ix3 k h d :=
  funext fun a => Fin.ext (by match a with | ⟨0, _⟩ => rfl | ⟨1, _⟩ => rfl | ⟨2, _⟩ => rfl)

theorem ht_idx (k : Fin 4) (b : Fin 131072) (h d : Fin 256) :
    ridx_main_v5 (idx_main_v6 (ix3 k b h)) d = ix2 b d :=
  funext fun a => Fin.ext (by match a with | ⟨0, _⟩ => rfl | ⟨1, _⟩ => rfl)

theorem bx_idx (k : Fin 4) (b : Fin 131072) (h : Fin 256) :
    idx_main_v2 (idx_main_v3 (ix3 k b h)) = ix2 k h :=
  funext fun a => Fin.ext (by match a with | ⟨0, _⟩ => rfl | ⟨1, _⟩ => rfl)

theorem bh_idx (k : Fin 4) (b : Fin 131072) (h : Fin 256) :
    idx_main_v7 (idx_main_v8 (ix3 k b h)) = ix2 k h :=
  funext fun a => Fin.ext (by match a with | ⟨0, _⟩ => rfl | ⟨1, _⟩ => rfl)

/-- Slice `k` of the gates' array with its unit axis dropped, at `(b, h)`, reads the array at `(k, b, h)`: a row-major
    position `b · 256 + h` below 131072 · 256 splits back into `b` and `h`. -/
theorem slice0_idx (b : Fin 131072) (h : Fin 256) : idx_main_v17 (idx_main_v18 (ix2 b h)) = ix3 (0 : Fin 4) b h := by
  have hb := b.isLt; have hh := h.isLt
  funext a; apply Fin.ext
  match a with
  | ⟨0, _⟩ => rfl
  | ⟨1, _⟩ => show (b.val * 256 + h.val) / 256 % 131072 = b.val; omega
  | ⟨2, _⟩ => show (b.val * 256 + h.val) % 256 = h.val; omega

theorem slice1_idx (b : Fin 131072) (h : Fin 256) : idx_main_v19 (idx_main_v20 (ix2 b h)) = ix3 (1 : Fin 4) b h := by
  have hb := b.isLt; have hh := h.isLt
  funext a; apply Fin.ext
  match a with
  | ⟨0, _⟩ => rfl
  | ⟨1, _⟩ => show (b.val * 256 + h.val) / 256 % 131072 = b.val; omega
  | ⟨2, _⟩ => show (b.val * 256 + h.val) % 256 = h.val; omega

theorem slice2_idx (b : Fin 131072) (h : Fin 256) : idx_main_v21 (idx_main_v22 (ix2 b h)) = ix3 (2 : Fin 4) b h := by
  have hb := b.isLt; have hh := h.isLt
  funext a; apply Fin.ext
  match a with
  | ⟨0, _⟩ => rfl
  | ⟨1, _⟩ => show (b.val * 256 + h.val) / 256 % 131072 = b.val; omega
  | ⟨2, _⟩ => show (b.val * 256 + h.val) % 256 = h.val; omega

theorem slice3_idx (b : Fin 131072) (h : Fin 256) : idx_main_v23 (idx_main_v24 (ix2 b h)) = ix3 (3 : Fin 4) b h := by
  have hb := b.isLt; have hh := h.isLt
  funext a; apply Fin.ext
  match a with
  | ⟨0, _⟩ => rfl
  | ⟨1, _⟩ => show (b.val * 256 + h.val) / 256 % 131072 = b.val; omega
  | ⟨2, _⟩ => show (b.val * 256 + h.val) % 256 = h.val; omega

/-! ## The four gates' array, then the two results -/

/-- The reference's array of all four gates holds, at gate `k`, batch row `b`, hidden unit `h`, the specification's gate. -/
theorem gates_apply (k : Fin 4) (b : Fin 131072) (h : Fin 256) :
    val_main_v16 (F := Ideal) x ht wx bx wh bh (ix3 k b h) = gate x ht wx wh bx bh k b h := by
  rw [val_main_v16_apply, val_main_v15_apply, val_main_cst_0_apply, val_main_v14_apply, val_main_v13_apply,
    val_main_cst_apply, val_main_v12_apply, val_main_v11_apply, val_main_v10_apply, val_main_v4_apply,
    val_main_v9_apply, val_main_v1_apply, val_main_v3_apply, val_main_v2_apply, val_main_v6_apply, val_main_v8_apply,
    val_main_v7_apply, val_main_v0_apply, val_main_v5_apply]
  simp only [wx_idx, x_idx, wh_idx, ht_idx, bx_idx, bh_idx, Ideal.ofBits_def, Ideal.ofBits_one_f32, Ideal.hostDivf_def,
    Ideal.addf_def, Ideal.hostUnary_exp_def, Ideal.hostNegf_def, Ideal.negf_def]
  rfl

/-- The reference's second result is the specification's new cell array. -/
theorem cell_eq : val_main_v27 (F := Ideal) x ht ct wx bx wh bh = cell x ht ct wx wh bx bh := by
  funext i
  obtain ⟨b, h, rfl⟩ : ∃ (b : Fin 131072) (h : Fin 256), i = ix2 b h := ⟨i 0, i 1, eq_ix2 i⟩
  rw [val_main_v27_apply, val_main_v25_apply, val_main_v26_apply, val_main_v20_apply, val_main_v19_apply,
    val_main_v18_apply, val_main_v17_apply, val_main_v24_apply, val_main_v23_apply, slice0_idx, slice1_idx, slice3_idx,
    gates_apply, gates_apply, gates_apply]
  rfl

/-- The reference's first result is the specification's new hidden array. -/
theorem hidden_eq : val_main_v29 (F := Ideal) x ht ct wx bx wh bh = hidden x ht ct wx wh bx bh := by
  funext i
  obtain ⟨b, h, rfl⟩ : ∃ (b : Fin 131072) (h : Fin 256), i = ix2 b h := ⟨i 0, i 1, eq_ix2 i⟩
  rw [val_main_v29_apply, val_main_v22_apply, val_main_v21_apply, slice2_idx, gates_apply, val_main_v28_apply]
  have hc := congrFun (cell_eq x ht ct wx wh bx bh) (ix2 b h)
  rw [hc]
  rfl

end Cert.ReferenceIdeal.RefValue

end
-- ==== Proof.KernelPay.lean ====
/-
  What the kernel body leaves in its two output blocks, index by index, as a function of its six input blocks.

  At one grid point the body holds a 2048-row block of `x`, of `ht` and of `ct`, the whole transposed weights (gate,
  contracted coordinate, hidden unit) and the whole added bias. For gate `k` it takes slice `k` of each weight array
  (a 1 × 256 × 256 piece with its unit axis dropped) and row `k` of the bias (a 1 × 256 piece, broadcast down the 2048
  rows), multiplies the two row blocks by the two weight slices into zero accumulators, adds the two products and the
  bias, and applies the logistic function. On the extended reals a change of float format is the identity and a matrix
  product into a zero accumulator is the plain sum over the contracted coordinate, so at row `p`, unit `q` gate `k` is
      logistic( Σ_d x[p,d] · wxT[k,d,q] + Σ_d ht[p,d] · whT[k,d,q] + bs[k,q] )                       (`blockGate`),
  the cell block is  gate₁ · ct + gate₀ · gate₃  and the hidden block is  gate₂ · tanh  of the cell block.
-/
import proofs.«113994_j31361851195863_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The matrix product at an index -/

theorem lhs_row (i : S2048x256.Idx) (κ : dot_S2048x256_S256x256_S2048x256_1_0_0_1_n_n.contr.Idx) :
    (dot_S2048x256_S256x256_S2048x256_1_0_0_1_n_n.lhsIdx i κ 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl

theorem lhs_contr (i : S2048x256.Idx) (κ : dot_S2048x256_S256x256_S2048x256_1_0_0_1_n_n.contr.Idx) :
    (dot_S2048x256_S256x256_S2048x256_1_0_0_1_n_n.lhsIdx i κ 1).val = (κ ⟨0, by decide⟩).val :=
  dot_S2048x256_S256x256_S2048x256_1_0_0_1_n_n.lhsIdx_val_of_single rfl i κ

theorem rhs_contr (i : S2048x256.Idx) (κ : dot_S2048x256_S256x256_S2048x256_1_0_0_1_n_n.contr.Idx) :
    (dot_S2048x256_S256x256_S2048x256_1_0_0_1_n_n.rhsIdx i κ 0).val = (κ ⟨0, by decide⟩).val :=
  dot_S2048x256_S256x256_S2048x256_1_0_0_1_n_n.rhsIdx_val_of_single rfl i κ

theorem rhs_col (i : S2048x256.Idx) (κ : dot_S2048x256_S256x256_S2048x256_1_0_0_1_n_n.contr.Idx) :
    (dot_S2048x256_S256x256_S2048x256_1_0_0_1_n_n.rhsIdx i κ 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A 2048 × 256 by 256 × 256 product into the zero accumulator, at row `p`, column `q`: the sum over the contracted
    coordinate of the row's entry times the column's. -/
theorem matmul_at (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ d : Fin 256, l (ix2 p d) * r (ix2 d q) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun d _ => ?_
  have hd := ValueIdx.contrEquiv1_symm_val dot_S2048x256_S256x256_S2048x256_1_0_0_1_n_n 256 rfl rfl d
  have el : dot_S2048x256_S256x256_S2048x256_1_0_0_1_n_n.lhsIdx (ix2 p q) ((ValueIdx.contrEquiv1 dot_S2048x256_S256x256_S2048x256_1_0_0_1_n_n 256 rfl rfl).symm d) = ix2 p d := funext fun a => Fin.ext (by
    match a with
    | ⟨0, _⟩ => exact lhs_row _ _
    | ⟨1, _⟩ => exact (lhs_contr _ _).trans hd)
  have er : dot_S2048x256_S256x256_S2048x256_1_0_0_1_n_n.rhsIdx (ix2 p q) ((ValueIdx.contrEquiv1 dot_S2048x256_S256x256_S2048x256_1_0_0_1_n_n 256 rfl rfl).symm d) = ix2 d q := funext fun a => Fin.ext (by
    match a with
    | ⟨0, _⟩ => exact (rhs_contr _ _).trans hd
    | ⟨1, _⟩ => exact rhs_col _ _)
  rw [el, er]

/-! ## One gate -/

/-- A weight slice with its unit axis dropped, at `(d, q)`. -/
theorem weight_at (w : FVec Ideal S1x256x256 .bf16) (d q : Fin 256) :
    (shapeCast S256x256 w shapeCasts_S1x256x256_S256x256 : FVec Ideal S256x256 .bf16) (ix2 d q) = w (ix3 (0 : Fin 1) d q) :=
  shapeCast_1ab_ab_apply w shapeCasts_S1x256x256_S256x256 d q

/-- A bias row, its unit axis dropped, put back and broadcast down the rows, at `(p, q)`. -/
theorem bias_at (v : FVec Ideal S1x256 .f32) (p : Fin 2048) (q : Fin 256) :
    (broadcastTo S2048x256 (shapeCast S1x256 (shapeCast S256 v shapeCasts_S1x256_S256) shapeCasts_S256_S1x256)
        broadcasts_S1x256_S2048x256 : FVec Ideal S2048x256 .f32) (ix2 p q) = v (ix2 (0 : Fin 1) q) :=
  (broadcastTo_1b_ab_apply _ broadcasts_S1x256_S2048x256 p q).trans
    ((shapeCast_a_1a_apply _ shapeCasts_S256_S1x256 (0 : Fin 1) q).trans (shapeCast_1a_a_apply v shapeCasts_S1x256_S256 q))

/-- One gate's vector expression at row `p`, unit `q`. -/
theorem gate_at (xb hb : FVec Ideal S2048x256 .bf16) (w u : FVec Ideal S1x256x256 .bf16) (v : FVec Ideal S1x256 .f32)
    (p : Fin 2048) (q : Fin 256) :
    (logistic (addf (addf
        (matmul dot_S2048x256_S256x256_S2048x256_1_0_0_1_n_n none xb (shapeCast S256x256 w shapeCasts_S1x256x256_S256x256) (constant (F := Ideal) S2048x256 .f32 0x00000000#32))
        (matmul dot_S2048x256_S256x256_S2048x256_1_0_0_1_n_n none hb (shapeCast S256x256 u shapeCasts_S1x256x256_S256x256) (constant (F := Ideal) S2048x256 .f32 0x00000000#32)))
        (broadcastTo S2048x256 (shapeCast S1x256 (shapeCast S256 v shapeCasts_S1x256_S256) shapeCasts_S256_S1x256) broadcasts_S1x256_S2048x256))
      : FVec Ideal S2048x256 .f32) (ix2 p q)
      = Ideal.logistic (((∑ d : Fin 256, xb (ix2 p d) * w (ix3 (0 : Fin 1) d q))
          + (∑ d : Fin 256, hb (ix2 p d) * u (ix3 (0 : Fin 1) d q))) + v (ix2 (0 : Fin 1) q)) := by
  show Ideal.logistic ((addf (addf _ _) _ : FVec Ideal S2048x256 .f32) (ix2 p q)) = _
  rw [addf_apply, addf_apply, matmul_at, matmul_at, bias_at]
  simp only [weight_at]

/-! ## The two stored payloads -/

/-- The cell payload at `(p, q)`: the forget gate (already computed, `f`) times the old cell, plus the input gate
    (already computed, `g0`) times the candidate gate. -/
theorem cellPay_at (xb hb : FVec Ideal S2048x256 .bf16) (c : FVec Ideal S2048x256 .f32) (g0 f : FVec Ideal S2048x256 .f32)
    (w u : FVec Ideal S1x256x256 .bf16) (v : FVec Ideal S1x256 .f32) (p : Fin 2048) (q : Fin 256) :
    k0_pay1 (F := Ideal) xb hb c g0 f w u v (ix2 p q)
      = f (ix2 p q) * c (ix2 p q) + g0 (ix2 p q) * Ideal.logistic (((∑ d : Fin 256, xb (ix2 p d) * w (ix3 (0 : Fin 1) d q))
          + (∑ d : Fin 256, hb (ix2 p d) * u (ix3 (0 : Fin 1) d q))) + v (ix2 (0 : Fin 1) q)) :=
  congrArg (fun z : EReal => f (ix2 p q) * c (ix2 p q) + g0 (ix2 p q) * z) (gate_at xb hb w u v p q)

/-- The hidden payload at `(p, q)`: the output gate times tanh of the cell payload. -/
theorem hiddenPay_at (xb hb : FVec Ideal S2048x256 .bf16) (c : FVec Ideal S2048x256 .f32) (g0 f : FVec Ideal S2048x256 .f32)
    (w2 u2 : FVec Ideal S1x256x256 .bf16) (v2 : FVec Ideal S1x256 .f32)
    (w u : FVec Ideal S1x256x256 .bf16) (v : FVec Ideal S1x256 .f32) (p : Fin 2048) (q : Fin 256) :
    k0_pay2 (F := Ideal) xb hb c g0 f w2 u2 v2 w u v (ix2 p q)
      = Ideal.logistic (((∑ d : Fin 256, xb (ix2 p d) * w2 (ix3 (0 : Fin 1) d q))
          + (∑ d : Fin 256, hb (ix2 p d) * u2 (ix3 (0 : Fin 1) d q))) + v2 (ix2 (0 : Fin 1) q))
        * Ideal.tanh (k0_pay1 (F := Ideal) xb hb c g0 f w u v (ix2 p q)) :=
  congrArg (fun z : EReal => z * Ideal.tanh (k0_pay1 (F := Ideal) xb hb c g0 f w u v (ix2 p q))) (gate_at xb hb w2 u2 v2 p q)

/-- The first two gates, computed from the row blocks before their format change. -/
theorem gate0Pay_at (x0 x1 : FVec Ideal S2048x256 .f32) (w u : FVec Ideal S1x256x256 .bf16) (v : FVec Ideal S1x256 .f32)
    (p : Fin 2048) (q : Fin 256) :
    k0_pay5 (F := Ideal) x0 x1 w u v (ix2 p q)
      = Ideal.logistic (((∑ d : Fin 256, x0 (ix2 p d) * w (ix3 (0 : Fin 1) d q))
          + (∑ d : Fin 256, x1 (ix2 p d) * u (ix3 (0 : Fin 1) d q))) + v (ix2 (0 : Fin 1) q)) :=
  gate_at (k0_pay3 x0) (k0_pay4 x1) w u v p q

theorem gate1Pay_at (x0 x1 : FVec Ideal S2048x256 .f32) (w u : FVec Ideal S1x256x256 .bf16) (v : FVec Ideal S1x256 .f32)
    (p : Fin 2048) (q : Fin 256) :
    k0_pay6 (F := Ideal) x0 x1 w u v (ix2 p q)
      = Ideal.logistic (((∑ d : Fin 256, x0 (ix2 p d) * w (ix3 (0 : Fin 1) d q))
          + (∑ d : Fin 256, x1 (ix2 p d) * u (ix3 (0 : Fin 1) d q))) + v (ix2 (0 : Fin 1) q)) :=
  gate_at (k0_pay3 x0) (k0_pay4 x1) w u v p q

/-! ## The slices the body loads -/

theorem wslice0 (d q : Fin 256) : r0_1.idx (ix3 (0 : Fin 1) d q) = ix3 (0 : Fin 4) d q :=
  funext fun a => Fin.ext (by
    match a with
    | ⟨0, _⟩ => rfl
    | ⟨1, _⟩ => show 0 + 1 * d.val = d.val; omega
    | ⟨2, _⟩ => show 0 + 1 * q.val = q.val; omega)

theorem wslice1 (d q : Fin 256) : r0_3.idx (ix3 (0 : Fin 1) d q) = ix3 (1 : Fin 4) d q :=
  funext fun a => Fin.ext (by
    match a with
    | ⟨0, _⟩ => rfl
    | ⟨1, _⟩ => show 0 + 1 * d.val = d.val; omega
    | ⟨2, _⟩ => show 0 + 1 * q.val = q.val; omega)

theorem wslice2 (d q : Fin 256) : r0_5.idx (ix3 (0 : Fin 1) d q) = ix3 (2 : Fin 4) d q :=
  funext fun a => Fin.ext (by
    match a with
    | ⟨0, _⟩ => rfl
    | ⟨1, _⟩ => show 0 + 1 * d.val = d.val; omega
    | ⟨2, _⟩ => show 0 + 1 * q.val = q.val; omega)

theorem wslice3 (d q : Fin 256) : r0_7.idx (ix3 (0 : Fin 1) d q) = ix3 (3 : Fin 4) d q :=
  funext fun a => Fin.ext (by
    match a with
    | ⟨0, _⟩ => rfl
    | ⟨1, _⟩ => show 0 + 1 * d.val = d.val; omega
    | ⟨2, _⟩ => show 0 + 1 * q.val = q.val; omega)

theorem bslice0 (q : Fin 256) : r0_2.idx (ix2 (0 : Fin 1) q) = ix2 (0 : Fin 4) q :=
  funext fun a => Fin.ext (by
    match a with
    | ⟨0, _⟩ => rfl
    | ⟨1, _⟩ => show 0 + 1 * q.val = q.val; omega)

theorem bslice1 (q : Fin 256) : r0_4.idx (ix2 (0 : Fin 1) q) = ix2 (1 : Fin 4) q :=
  funext fun a => Fin.ext (by
    match a with
    | ⟨0, _⟩ => rfl
    | ⟨1, _⟩ => show 0 + 1 * q.val = q.val; omega)

theorem bslice2 (q : Fin 256) : r0_6.idx (ix2 (0 : Fin 1) q) = ix2 (2 : Fin 4) q :=
  funext fun a => Fin.ext (by
    match a with
    | ⟨0, _⟩ => rfl
    | ⟨1, _⟩ => show 0 + 1 * q.val = q.val; omega)

theorem bslice3 (q : Fin 256) : r0_8.idx (ix2 (0 : Fin 1) q) = ix2 (3 : Fin 4) q :=
  funext fun a => Fin.ext (by
    match a with
    | ⟨0, _⟩ => rfl
    | ⟨1, _⟩ => show 0 + 1 * q.val = q.val; omega)

/-! ## The two output blocks -/

/-- Gate `k` of one grid point at row `p` of the block, unit `q`, from the point's input blocks. -/
def blockGate (x0 x1 : FVec Ideal S2048x256 .f32) (x3 x4 : FVec Ideal S4x256x256 .bf16) (x5 : FVec Ideal S4x256 .f32)
    (k : Fin 4) (p : Fin 2048) (q : Fin 256) : EReal :=
  Ideal.logistic (((∑ d : Fin 256, x0 (ix2 p d) * x3 (ix3 k d q)) + (∑ d : Fin 256, x1 (ix2 p d) * x4 (ix3 k d q)))
    + x5 (ix2 k q))

theorem hz : (![0, 0] : Fin 2 → Nat) = fun _ => 0 := funext fun a => by fin_cases a <;> rfl

/-- The cell block the body stores. -/
theorem cellBlock_at (x0 x1 x2 : FVec Ideal S2048x256 .f32) (x3 x4 : FVec Ideal S4x256x256 .bf16) (x5 : FVec Ideal S4x256 .f32)
    (p : Fin 2048) (q : Fin 256) :
    out0_7 (F := Ideal) x0 x1 x2 x3 x4 x5 (ix2 p q)
      = blockGate x0 x1 x3 x4 x5 1 p q * x2 (ix2 p q) + blockGate x0 x1 x3 x4 x5 0 p q * blockGate x0 x1 x3 x4 x5 3 p q := by
  unfold out0_7
  rw [View.canon_unit_zero hz]
  simp only [View.ld_unit_zero (S := S2048x256) hz]
  refine (cellPay_at _ _ _ _ _ _ _ _ p q).trans ?_
  rw [gate0Pay_at, gate1Pay_at]
  simp only [View.ld, wslice0, wslice1, wslice3, bslice0, bslice1, bslice3]
  rfl

/-- The hidden block the body stores. -/
theorem hiddenBlock_at (x0 x1 x2 : FVec Ideal S2048x256 .f32) (x3 x4 : FVec Ideal S4x256x256 .bf16) (x5 : FVec Ideal S4x256 .f32)
    (p : Fin 2048) (q : Fin 256) :
    out0_6 (F := Ideal) x0 x1 x2 x3 x4 x5 (ix2 p q)
      = blockGate x0 x1 x3 x4 x5 2 p q * Ideal.tanh (out0_7 (F := Ideal) x0 x1 x2 x3 x4 x5 (ix2 p q)) := by
  have hc : out0_7 (F := Ideal) x0 x1 x2 x3 x4 x5 (ix2 p q) = k0_pay1 (F := Ideal) (k0_pay3 x0) (k0_pay4 x1) x2
      (k0_pay5 x0 x1 (View.ld x3 r0_1) (View.ld x4 r0_1) (View.ld x5 r0_2))
      (k0_pay6 x0 x1 (View.ld x3 r0_3) (View.ld x4 r0_3) (View.ld x5 r0_4))
      (View.ld x3 r0_7) (View.ld x4 r0_7) (View.ld x5 r0_8) (ix2 p q) := by
    unfold out0_7
    rw [View.canon_unit_zero hz]
    simp only [View.ld_unit_zero (S := S2048x256) hz]
  rw [hc]
  unfold out0_6
  rw [View.canon_unit_zero hz]
  simp only [View.ld_unit_zero (S := S2048x256) hz]
  refine (hiddenPay_at _ _ _ _ _ _ _ _ _ _ _ p q).trans ?_
  simp only [View.ld, wslice2, bslice2]
  rfl

end Cert.KernelIdeal.Pay

end
-- ==== Proof.Blocks.lean ====
/-
  From blocks to arrays: after the kernel's run the two result arrays are the cell and hidden arrays of the
  specification's kernel arrangement (`LstmCell.fusedCell`, `fusedHidden`), taken of the six arrays the call stages as it
  finds them — and those are the specification's arrays of the seven arguments.

  The grid has 64 points. Point `t` stages rows `2048·t … 2048·t + 2047` of `x`, `ht` and `ct` (block index `(t, 0)`),
  the whole weight and bias arrays (block index zero on every axis, the same at every point), and writes back rows
  `2048·t …` of the two results. So row `p` of a row block at point `t` is row `2048·t + p` of its array, what point `t`
  writes back is block `t` of one whole-array function, and the 64 blocks cover the 131072 rows: row `r` lies in the
  block of point `r / 2048`.

  Before the call the host transposes each weight array's last two axes (then changes its format, the identity on the
  extended reals) and adds the two bias arrays: exactly the two relations under which the kernel's arrangement is the
  specification (`LstmCell.fusedCell_eq`, `fusedHidden_eq`).
-/
import proofs.«113994_j31361851195863_2_alg».proof.Proof.Gen.KernelIdeal.Value
import proofs.«113994_j31361851195863_2_alg».proof.Proof.KernelPay
import proofs.«113994_j31361851195863_2_alg».proof.Proof.Spec
import Idealize.ShloMosaic.Lib.StableHlo.Run
import Idealize.ShloMosaic.Lib.ValueLayout
import Idealize.ShloMosaic.Lib.Tactic

noncomputable section

namespace Cert.KernelIdeal.Blocks

open Cert.KernelIdeal Cert.KernelIdeal.Gen Cert.KernelIdeal.Pay Idealize.ShloMosaic Idealize.ShloMosaic.TcCoe
open Idealize.ShloMosaic.ValueIdx Idealize.SL.Sem Cert.LstmCell
open Idealize.ShloMosaic.Pipeline (Dat)

variable (m : (ℓ : Loc nD τ sig) → Buf (Elt Ideal) ℓ) (ρ : Dev nD → PrngReg)

/-! ## The index maps, decided over the 64 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-! ## Each input block read off its array -/

/-- Entry `y` of the `x` block at point `t` is the array's entry at row `2048·t + y₀`, column `y₁`. -/
theorem xblk_apply (c : Dev nD) (t : Fin cfg0.N) (y : S2048x256.Idx) (i : S131072x256.Idx)
    (h0 : (i 0).val = t.val * 2048 + (y 0).val) (h1 : (i 1).val = (y 1).val) :
    (iblk m c 0 t : Vec Ideal S2048x256 .f32) y = (V m c main_arg0 : S131072x256.Idx → EReal) i := by
  obtain ⟨e0, e1⟩ := idx0 t
  unfold iblk
  rw [View.read_apply]
  show V m c main_arg0 _ = V m c main_arg0 _
  refine congrArg (V m c main_arg0 : S131072x256.Idx → EReal) (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 256 + 1 * (y 1).val = (i 1).val; rw [e1, h1]; omega

/-- The same for the `ht` block. -/
theorem hblk_apply (c : Dev nD) (t : Fin cfg0.N) (y : S2048x256.Idx) (i : S131072x256.Idx)
    (h0 : (i 0).val = t.val * 2048 + (y 0).val) (h1 : (i 1).val = (y 1).val) :
    (iblk m c 1 t : Vec Ideal S2048x256 .f32) y = (V m c main_arg1 : S131072x256.Idx → EReal) i := by
  obtain ⟨e0, e1⟩ := idx1 t
  unfold iblk
  rw [View.read_apply]
  show V m c main_arg1 _ = V m c main_arg1 _
  refine congrArg (V m c main_arg1 : S131072x256.Idx → EReal) (funext fun a => Fin.ext ?_)
  match a with
  | ⟨0, _⟩ => show win0_1.index t (0 : Fin 2) * 2048 + 1 * (y 0).val = (i 0).val; rw [e0, h0]; omega
  | ⟨1, _⟩ => show win0_1.index t (1 : Fin 2) * 256 + 1 * (y 1).val = (i 1).val; rw [e1, h1]; omega

/-- The same for the `ct` block. -/
theorem cblk_apply (c : Dev nD) (t : Fin cfg0.N) (y : S2048x256.Idx) (i : S131072x256.Idx)
    (h0 : (i 0).val = t.val * 2048 + (y 0).val) (h1 : (i 1).val = (y 1).val) :
    (iblk m c 2 t : Vec Ideal S2048x256 .f32) y = (V m c main_arg2 : S131072x256.Idx → EReal) i := by
  obtain ⟨e0, e1⟩ := idx2 t
  unfold iblk
  rw [View.read_apply]
  show V m c main_arg2 _ = V m c main_arg2 _
  refine congrArg (V m c main_arg2 : S131072x256.Idx → EReal) (funext fun a => Fin.ext ?_)
  match a with
  | ⟨0, _⟩ => show win0_2.index t (0 : Fin 2) * 2048 + 1 * (y 0).val = (i 0).val; rw [e0, h0]; omega
  | ⟨1, _⟩ => show win0_2.index t (1 : Fin 2) * 256 + 1 * (y 1).val = (i 1).val; rw [e1, h1]; omega

/-- The transposed input weights are staged whole: the block at any point is the array. -/
theorem wxblk_apply (c : Dev nD) (t : Fin cfg0.N) (y : S4x256x256.Idx) :
    (iblk m c 3 t : Vec Ideal S4x256x256 .bf16) y = (V m c main_v1 : S4x256x256.Idx → EReal) y := by
  obtain ⟨e0, e1, e2⟩ := idx3 t
  unfold iblk
  rw [View.read_apply]
  show V m c main_v1 _ = V m c main_v1 _
  refine congrArg (V m c main_v1 : S4x256x256.Idx → EReal) (funext fun a => Fin.ext ?_)
  match a with
  | ⟨0, _⟩ => show win0_3.index t (0 : Fin 3) * 4 + 1 * (y 0).val = (y 0).val; rw [e0]; omega
  | ⟨1, _⟩ => show win0_3.index t (1 : Fin 3) * 256 + 1 * (y 1).val = (y 1).val; rw [e1]; omega
  | ⟨2, _⟩ => show win0_3.index t (2 : Fin 3) * 256 + 1 * (y 2).val = (y 2).val; rw [e2]; omega

/-- So are the transposed recurrent weights. -/
theorem whblk_apply (c : Dev nD) (t : Fin cfg0.N) (y : S4x256x256.Idx) :
    (iblk m c 4 t : Vec Ideal S4x256x256 .bf16) y = (V m c main_v3 : S4x256x256.Idx → EReal) y := by
  obtain ⟨e0, e1, e2⟩ := idx4 t
  unfold iblk
  rw [View.read_apply]
  show V m c main_v3 _ = V m c main_v3 _
  refine congrArg (V m c main_v3 : S4x256x256.Idx → EReal) (funext fun a => Fin.ext ?_)
  match a with
  | ⟨0, _⟩ => show win0_4.index t (0 : Fin 3) * 4 + 1 * (y 0).val = (y 0).val; rw [e0]; omega
  | ⟨1, _⟩ => show win0_4.index t (1 : Fin 3) * 256 + 1 * (y 1).val = (y 1).val; rw [e1]; omega
  | ⟨2, _⟩ => show win0_4.index t (2 : Fin 3) * 256 + 1 * (y 2).val = (y 2).val; rw [e2]; omega

/-- And the added bias. -/
theorem bsblk_apply (c : Dev nD) (t : Fin cfg0.N) (y : S4x256.Idx) :
    (iblk m c 5 t : Vec Ideal S4x256 .f32) y = (V m c main_v4 : S4x256.Idx → EReal) y := by
  obtain ⟨e0, e1⟩ := idx5 t
  unfold iblk
  rw [View.read_apply]
  show V m c main_v4 _ = V m c main_v4 _
  refine congrArg (V m c main_v4 : S4x256.Idx → EReal) (funext fun a => Fin.ext ?_)
  match a with
  | ⟨0, _⟩ => show win0_5.index t (0 : Fin 2) * 4 + 1 * (y 0).val = (y 0).val; rw [e0]; omega
  | ⟨1, _⟩ => show win0_5.index t (1 : Fin 2) * 256 + 1 * (y 1).val = (y 1).val; rw [e1]; omega

/-! ## One grid point's results are the whole-array functions at the point's rows -/

/-- The new cell array in the kernel's arrangement, of the six staged arrays as the call finds them. -/
def cellArr (c : Dev nD) : S131072x256.Idx → EReal :=
  fusedCell (V m c main_arg0) (V m c main_arg1) (V m c main_arg2) (V m c main_v1) (V m c main_v3) (V m c main_v4)

/-- The new hidden array likewise. -/
def hiddenArr (c : Dev nD) : S131072x256.Idx → EReal :=
  fusedHidden (V m c main_arg0) (V m c main_arg1) (V m c main_arg2) (V m c main_v1) (V m c main_v3) (V m c main_v4)

/-- Gate `k` at row `p` of point `t`'s block is the whole-array gate at row `b = 2048·t + p`. -/
theorem gate_point (c : Dev nD) (t : Fin cfg0.N) (k : Fin 4) (p : Fin 2048) (q : Fin 256) (b : Fin 131072)
    (hb : b.val = t.val * 2048 + p.val) :
    blockGate (iblk m c 0 t) (iblk m c 1 t) (iblk m c 3 t) (iblk m c 4 t) (iblk m c 5 t) k p q
      = fusedGate (V m c main_arg0) (V m c main_arg1) (V m c main_v1) (V m c main_v3) (V m c main_v4) k b q := by
  unfold blockGate fusedGate
  refine congrArg Ideal.logistic (congrArg₂ (· + ·) (congrArg₂ (· + ·)
    (Finset.sum_congr rfl fun d _ => ?_) (Finset.sum_congr rfl fun d _ => ?_)) ?_)
  · exact congrArg₂ (· * ·) (xblk_apply m c t (ix2 p d) (ix2 b d) hb rfl) (wxblk_apply m c t (ix3 k d q))
  · exact congrArg₂ (· * ·) (hblk_apply m c t (ix2 p d) (ix2 b d) hb rfl) (whblk_apply m c t (ix3 k d q))
  · exact bsblk_apply m c t (ix2 k q)

/-- The cell block at point `t`, row `p`, is the cell array at row `2048·t + p`. -/
theorem cell_point (c : Dev nD) (t : Fin cfg0.N) (p : Fin 2048) (q : Fin 256) (b : Fin 131072)
    (hb : b.val = t.val * 2048 + p.val) :
    out0_7 (F := Ideal) (iblk m c 0 t) (iblk m c 1 t) (iblk m c 2 t) (iblk m c 3 t) (iblk m c 4 t) (iblk m c 5 t) (ix2 p q)
      = fusedCellAt (V m c main_arg0) (V m c main_arg1) (V m c main_arg2) (V m c main_v1) (V m c main_v3) (V m c main_v4) b q := by
  refine (cellBlock_at (iblk m c 0 t) (iblk m c 1 t) (iblk m c 2 t) (iblk m c 3 t) (iblk m c 4 t) (iblk m c 5 t) p q).trans ?_
  unfold fusedCellAt
  rw [gate_point m c t 1 p q b hb, gate_point m c t 0 p q b hb, gate_point m c t 3 p q b hb]
  exact congrArg (fun z : EReal => _ * z + _) (cblk_apply m c t (ix2 p q) (ix2 b q) hb rfl)

/-- The hidden block at point `t`, row `p`, is the hidden array at row `2048·t + p`. -/
theorem hidden_point (c : Dev nD) (t : Fin cfg0.N) (p : Fin 2048) (q : Fin 256) (b : Fin 131072)
    (hb : b.val = t.val * 2048 + p.val) :
    out0_6 (F := Ideal) (iblk m c 0 t) (iblk m c 1 t) (iblk m c 2 t) (iblk m c 3 t) (iblk m c 4 t) (iblk m c 5 t) (ix2 p q)
      = fusedHiddenAt (V m c main_arg0) (V m c main_arg1) (V m c main_arg2) (V m c main_v1) (V m c main_v3) (V m c main_v4) b q := by
  refine (hiddenBlock_at (iblk m c 0 t) (iblk m c 1 t) (iblk m c 2 t) (iblk m c 3 t) (iblk m c 4 t) (iblk m c 5 t) p q).trans ?_
  unfold fusedHiddenAt
  rw [gate_point m c t 2 p q b hb, cell_point m c t p q b hb]

/-- The same two facts at any block index `y` and array index `i` with `i = (2048·t + y₀, y₁)`. -/
theorem cell_block (c : Dev nD) (t : Fin cfg0.N) (y : S2048x256.Idx) (i : S131072x256.Idx)
    (h0 : (i 0).val = t.val * 2048 + (y 0).val) (h1 : (i 1).val = (y 1).val) :
    out0_7 (F := Ideal) (iblk m c 0 t) (iblk m c 1 t) (iblk m c 2 t) (iblk m c 3 t) (iblk m c 4 t) (iblk m c 5 t) y
      = cellArr m c i := by
  obtain ⟨p, q, rfl⟩ : ∃ (p : Fin 2048) (q : Fin 256), y = ix2 p q := ⟨y 0, y 1, eq_ix2 y⟩
  obtain ⟨b, h, rfl⟩ : ∃ (b : Fin 131072) (h : Fin 256), i = ix2 b h := ⟨i 0, i 1, eq_ix2 i⟩
  obtain rfl : h = q := Fin.ext h1
  exact cell_point m c t p h b h0

theorem hidden_block (c : Dev nD) (t : Fin cfg0.N) (y : S2048x256.Idx) (i : S131072x256.Idx)
    (h0 : (i 0).val = t.val * 2048 + (y 0).val) (h1 : (i 1).val = (y 1).val) :
    out0_6 (F := Ideal) (iblk m c 0 t) (iblk m c 1 t) (iblk m c 2 t) (iblk m c 3 t) (iblk m c 4 t) (iblk m c 5 t) y
      = hiddenArr m c i := by
  obtain ⟨p, q, rfl⟩ : ∃ (p : Fin 2048) (q : Fin 256), y = ix2 p q := ⟨y 0, y 1, eq_ix2 y⟩
  obtain ⟨b, h, rfl⟩ : ∃ (b : Fin 131072) (h : Fin 256), i = ix2 b h := ⟨i 0, i 1, eq_ix2 i⟩
  obtain rfl : h = q := Fin.ext h1
  exact hidden_point m c t p h b h0

/-! ## What each point writes back, the cover, and the arrays after the run -/

/-- Point `t` writes back block `t` of the hidden array. -/
theorem flushed6_eq (c : Dev nD) (t : Fin cfg0.N) :
    (dats m 0 c).flushed 6 t = ((cfg0.win 6).blk t).view.read (Elt Ideal) (hiddenArr m c) := by
  obtain ⟨e0, e1⟩ := idx6 t
  rw [Value.flushed6]
  funext j
  show out0_6 (F := Ideal) (iblk m c 0 t) (iblk m c 1 t) (iblk m c 2 t) (iblk m c 3 t) (iblk m c 4 t) (iblk m c 5 t) j
    = hiddenArr m c (((cfg0.win 6).blk t).view.emb j)
  refine hidden_block m c t j (((cfg0.win 6).blk t).view.emb j) ?_ ?_
  · show win0_6.index t (0 : Fin 2) * 2048 + 1 * (j 0).val = t.val * 2048 + (j 0).val; rw [e0]; omega
  · show win0_6.index t (1 : Fin 2) * 256 + 1 * (j 1).val = (j 1).val; rw [e1]; omega

/-- Point `t` writes back block `t` of the cell array. -/
theorem flushed7_eq (c : Dev nD) (t : Fin cfg0.N) :
    (dats m 0 c).flushed 7 t = ((cfg0.win 7).blk t).view.read (Elt Ideal) (cellArr m c) := by
  obtain ⟨e0, e1⟩ := idx7 t
  rw [Value.flushed7]
  funext j
  show out0_7 (F := Ideal) (iblk m c 0 t) (iblk m c 1 t) (iblk m c 2 t) (iblk m c 3 t) (iblk m c 4 t) (iblk m c 5 t) j
    = cellArr m c (((cfg0.win 7).blk t).view.emb j)
  refine cell_block m c t j (((cfg0.win 7).blk t).view.emb j) ?_ ?_
  · show win0_7.index t (0 : Fin 2) * 2048 + 1 * (j 0).val = t.val * 2048 + (j 0).val; rw [e0]; omega
  · show win0_7.index t (1 : Fin 2) * 256 + 1 * (j 1).val = (j 1).val; rw [e1]; omega

/-- An index of the hidden result is in point `t`'s block iff each coordinate is in the block's range on its axis. -/
theorem mem_blk6 (t : Fin cfg0.N) (i : S131072x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v5_0).slice (win0_6.rect t)).set ↔ _
  rw [View.set_slice_whole, Rect.mem_set_unit]
  exact Iff.rfl

theorem mem_blk7 (t : Fin cfg0.N) (i : S131072x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v5_1).slice (win0_7.rect t)).set ↔ _
  rw [View.set_slice_whole, Rect.mem_set_unit]
  exact Iff.rfl

/-- Every index of the hidden result lies in the block of the point `row / 2048`. -/
theorem cover6 (i : S131072x256.Idx) :
    ∃ t : Fin cfg0.N, (cfg0.win 6).flush t = true ∧ i ∈ ((cfg0.win 6).blk t).view.set := by
  have hi0 : (i 0).val < 131072 := (i 0).isLt
  have hi1 : (i 1).val < 256 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨e0, e1⟩ := idx6 t
  refine ⟨t, flush0_6 t, ?_⟩
  rw [mem_blk6]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 256 ≤ (i 1).val ∧ (i 1).val < win0_6.index t (1 : Fin 2) * 256 + 256
    rw [e1]; omega

theorem cover7 (i : S131072x256.Idx) :
    ∃ t : Fin cfg0.N, (cfg0.win 7).flush t = true ∧ i ∈ ((cfg0.win 7).blk t).view.set := by
  have hi0 : (i 0).val < 131072 := (i 0).isLt
  have hi1 : (i 1).val < 256 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨e0, e1⟩ := idx7 t
  refine ⟨t, flush0_7 t, ?_⟩
  rw [mem_blk7]
  intro a
  match a with
  | ⟨0, _⟩ =>
    show win0_7.index t (0 : Fin 2) * 2048 ≤ (i 0).val ∧ (i 0).val < win0_7.index t (0 : Fin 2) * 2048 + 2048
    rw [e0, ht]; omega
  | ⟨1, _⟩ =>
    show win0_7.index t (1 : Fin 2) * 256 ≤ (i 1).val ∧ (i 1).val < win0_7.index t (1 : Fin 2) * 256 + 256
    rw [e1]; omega

/-- After the run the first result array is the hidden array. -/
theorem final6 (c : Dev nD) : (dats m 0 c).arrAt 6 cfg0.N = hiddenArr m c :=
  (dats m 0 c).arrAt_eq_of_cover 6 (hiddenArr m c) (fun t _ => flushed6_eq m c t) cover6

/-- After the run the second result array is the cell array. -/
theorem final7 (c : Dev nD) : (dats m 0 c).arrAt 7 cfg0.N = cellArr m c :=
  (dats m 0 c).arrAt_eq_of_cover 7 (cellArr m c) (fun t _ => flushed7_eq m c t) cover7

/-! ## The arrays the host prepares, and the specification -/

/-- The first staged weight array is the input weights with the last two axes exchanged. -/
theorem wxT_at (c : Dev nD) (k : Fin 4) (d h : Fin 256) :
    @Eq EReal ((V m c main_v1 : S4x256x256.Idx → EReal) (ix3 k d h)) ((m ((c : Thread nD τ).loc main_arg3) : S4x256x256.Idx → EReal) (ix3 k h d)) := by
  have e : @Eq (S4x256x256.Idx → EReal) (V m c main_v1)
      (truncf (F := Ideal) .bf16 (transpose S4x256x256 [0, 2, 1] (m ((c : Thread nD τ).loc main_arg3)) transposes_S4x256x256_S4x256x256_0_2_1) bitsLt_bf16_f32) := by
    dsimp only [Gen.V, Gen.hostOps0]; after_results
  rw [e]
  exact transpose_ix3_021_apply _ transposes_S4x256x256_S4x256x256_0_2_1 k d h

/-- The second is the recurrent weights likewise. -/
theorem whT_at (c : Dev nD) (k : Fin 4) (d h : Fin 256) :
    @Eq EReal ((V m c main_v3 : S4x256x256.Idx → EReal) (ix3 k d h)) ((m ((c : Thread nD τ).loc main_arg5) : S4x256x256.Idx → EReal) (ix3 k h d)) := by
  have e : @Eq (S4x256x256.Idx → EReal) (V m c main_v3)
      (truncf (F := Ideal) .bf16 (transpose S4x256x256 [0, 2, 1] (m ((c : Thread nD τ).loc main_arg5)) transposes_S4x256x256_S4x256x256_0_2_1) bitsLt_bf16_f32) := by
    dsimp only [Gen.V, Gen.hostOps0]; after_results
  rw [e]
  exact transpose_ix3_021_apply _ transposes_S4x256x256_S4x256x256_0_2_1 k d h

/-- The two bias arguments as arrays of extended reals. -/
abbrev bxArg (c : Dev nD) : S4x256.Idx → EReal := m ((c : Thread nD τ).loc main_arg4)
abbrev bhArg (c : Dev nD) : S4x256.Idx → EReal := m ((c : Thread nD τ).loc main_arg6)

/-- The staged bias is the sum of the two bias arrays. -/
theorem bs_at (c : Dev nD) (k : Fin 4) (h : Fin 256) :
    @Eq EReal ((V m c main_v4 : S4x256.Idx → EReal) (ix2 k h)) (bxArg m c (ix2 k h) + bhArg m c (ix2 k h)) := by
  have e : @Eq (S4x256.Idx → EReal) (V m c main_v4) (addf (F := Ideal) (s := S4x256) (φ := .f32) (bxArg m c) (bhArg m c)) := by
    dsimp only [Gen.V, Gen.hostOps0]; after_results
  rw [e]
  rfl

/-- The kernel's cell array is the specification's, of the seven arguments. -/
theorem cellArr_eq (c : Dev nD) :
    cellArr m c = cell (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg4)) (m ((c : Thread nD τ).loc main_arg6)) := by
  unfold cellArr
  rw [V_main_arg0, V_main_arg1, V_main_arg2]
  exact fusedCell_eq _ _ _ (wxT_at m c) (whT_at m c) (bs_at m c)

/-- The kernel's hidden array is the specification's. -/
theorem hiddenArr_eq (c : Dev nD) :
    hiddenArr m c = hidden (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg4)) (m ((c : Thread nD τ).loc main_arg6)) := by
  unfold hiddenArr
  rw [V_main_arg0, V_main_arg1, V_main_arg2]
  exact fusedHidden_eq _ _ _ (wxT_at m c) (whT_at m c) (bs_at m c)

/-! ## The run, read -/

/-- Every weakly fair execution of the kernel's program ends with the two results at the specification's hidden and cell
    arrays of the arguments, the arguments unchanged. -/
theorem run : θ_run defs (onTc (τ := τ) (main (F := Ideal))) ⟨m, fun _ => 0, ρ⟩ fun r => ∀ c : Dev nD,
      r.2.mem ((c : Thread nD τ).loc main_v5_0) = hidden (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg4)) (m ((c : Thread nD τ).loc main_arg6))
      ∧ r.2.mem ((c : Thread nD τ).loc main_v5_1) = cell (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final6 m c).trans (hiddenArr_eq m c)),
      (h c).2.1.trans ((final7 m c).trans (cellArr_eq m c)), (h c).2.2⟩)
    (Cert.KernelIdeal.Value.run_blocks m ρ)

end Cert.KernelIdeal.Blocks

end
-- ==== Proof.lean ====
/-
  An LSTM cell with all four gates logistic: from rows `x`, `ht`, `ct` (131072 × 256), gate weights `wx`, `wh`
  (4 × 256 × 256) and gate biases `bx`, `bh` (4 × 256), gate `k` at batch row `b`, hidden unit `h` is the logistic
  function of  Σ_d wx[k,h,d]·x[b,d] + bx[k,h] + Σ_d wh[k,h,d]·ht[b,d] + bh[k,h] , the new cell is
  gate₁·ct + gate₀·gate₃  and the new hidden value is  gate₂·tanh(cell)  (Proof/Spec.lean).

  The reference computes exactly this with the logistic function spelt 1/(1 + exp(−z)) (Proof/RefSide.lean). The kernel
  is handed the weights with their last two axes exchanged and the two biases already added, works on 64 blocks of 2048
  rows, and adds the two dot products before the bias (Proof/KernelPay.lean: one block; Proof/Blocks.lean: the 64 blocks
  cover the arrays and the host's preparation is undone). The two arrangements agree on every extended real because
  + and · are commutative and + is associative there: no cancellation and no distributivity is used, so the finiteness
  of the inputs is never needed for the values.

  The three frame claims are the generated frame runs; the idealization rewrote nothing, so `preserves` is trivial;
  `algebraic` sets the kernel's run beside the reference's, both ending at the specification's hidden and cell arrays of
  arguments that agree.
-/
import proofs.«113994_j31361851195863_2_alg».proof.Defs
import proofs.«113994_j31361851195863_2_alg».proof.Proof.Gen.Kernel
import proofs.«113994_j31361851195863_2_alg».proof.Proof.Gen.Kernel.Skeleton
import proofs.«113994_j31361851195863_2_alg».proof.Proof.Gen.Kernel.Launch
import proofs.«113994_j31361851195863_2_alg».proof.Proof.Gen.Kernel.Points
import proofs.«113994_j31361851195863_2_alg».proof.Proof.Gen.Kernel.Frame
import proofs.«113994_j31361851195863_2_alg».proof.Proof.Gen.KernelIdeal
import proofs.«113994_j31361851195863_2_alg».proof.Proof.Gen.KernelIdeal.Skeleton
import proofs.«113994_j31361851195863_2_alg».proof.Proof.Gen.KernelIdeal.Launch
import proofs.«113994_j31361851195863_2_alg».proof.Proof.Gen.KernelIdeal.Points
import proofs.«113994_j31361851195863_2_alg».proof.Proof.Gen.KernelIdeal.Frame
import proofs.«113994_j31361851195863_2_alg».proof.Proof.Gen.ReferenceIdeal
import proofs.«113994_j31361851195863_2_alg».proof.Proof.Gen.Pre_finite_inputs
import proofs.«113994_j31361851195863_2_alg».proof.Proof.Gen.KernelIdeal.Value
import proofs.«113994_j31361851195863_2_alg».proof.Proof.Gen.ReferenceIdeal.Run
import proofs.«113994_j31361851195863_2_alg».proof.Proof.Gen.ReferenceIdeal.Read
import proofs.«113994_j31361851195863_2_alg».proof.Proof.Spec
import proofs.«113994_j31361851195863_2_alg».proof.Proof.RefSide
import proofs.«113994_j31361851195863_2_alg».proof.Proof.KernelPay
import proofs.«113994_j31361851195863_2_alg».proof.Proof.Blocks
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the seven arguments both programs end with the specification's hidden array as first
    result and its cell array as second. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v29_eq, Cert.ReferenceIdeal.RefValue.hidden_eq, a0, a1, a2, a3, a4, a5, a6]
  · obtain ⟨a0, a1, a2, a3, a4, a5, a6⟩ := hagree c
    refine (Cert.ReferenceIdeal.Read.val_main_v27_eq _ _ _ _ _ _ _).trans ?_
    rw [Cert.ReferenceIdeal.RefValue.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
